-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x1024 .f32) (main_arg1 : FVec F S4096x1024 .f32) (main_arg2 : FVec F S1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x1024 : Shape := ⟨2, ![16384, 1024]⟩
abbrev S4096x1024 : Shape := ⟨2, ![4096, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x4096_S256 : S256x4096.Reduces [1] S256
  broadcasts_S256x1_S256x4096 : S256x1.Broadcasts S256x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S16384x1024.size a
  hwx1_0 : ∀ i : grid1.Coords, EltTy.bits .f32 = 32 ∨ (Rect.block (s := S16384x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S16384x1024.size a
  hwx1_4 : ∀ i : grid1.Coords, EltTy.bits .f32 = 32 ∨ (Rect.block (s := S16384x1024) S256x1024.size (cc1_transform_4 i) (hinb1_4 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x4096 : Shape := ⟨2, ![16384, 4096]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x4096, .f32⟩
  | .hbm, ⟨41, _⟩ => ⟨S16384x4096, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S16384x4096 : S_.BroadcastsInDim S16384x4096 (![] : Fin 0 → Fin S16384x4096.rank)
  reducesTo_S16384x4096_S16384_d1 : S16384x4096.ReducesTo [1] S16384
  bcast_S_S16384 : S_.BroadcastsInDim S16384 (![] : Fin 0 → Fin S16384.rank)
  bcast_S16384x1_S16384x4096_0_1 : S16384x1.BroadcastsInDim S16384x4096 (![0, 1] : Fin 2 → Fin S16384x4096.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S4096x1024_S16384x4096_1_1_0_0_n_n_wf : DotDims.WF S16384x1024 S4096x1024 S16384x4096 [1] [1] [0] [0] [] []
  dot_S16384x4096_S4096x1024_S16384x1024_1_0_0_1_n_n_wf : DotDims.WF S16384x4096 S4096x1024 S16384x1024 [1] [0] [0] [1] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.KernelRun.lean ====
/-
  The idealized kernel's run with its result array named.

  The program is two grid regions with two reshapes between them. Every weakly fair execution terminates without a
  fault; at the end the result array holds what the second region's write-backs leave of it (the last boundary's
  contents read at the result's reference), and the four argument arrays are as launched.
-/
import proofs.«124981_j28509992911130_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two regions and the reshapes between them: the final state has the result array at the last
    boundary's contents and every argument array as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The last boundary's contents at the result's reference: what the second region's write-backs leave of its
    output window's array. -/
theorem result_eq (c : Dev nD) :
    W3 m ρ c (Proc.devRef .tc main_v3) = (dat1 (V2 m ρ) c).arrAt 4 cfg1.N :=
  W3_arr m ρ c 4

end Cert.KernelIdeal.Out

end
-- ==== Proof.Rows.lean ====
/-
  One query row against a bank of unit rows, on the extended reals.

  A row \`v\` is divided by its Euclidean norm (floored at a small positive constant): \`unitRow v\`. A query row \`x\` is
  scored against every bank row \`N j\` by the inner product of the unit query with \`N j\`, scaled by a constant \`c\`;
  the scores go through a softmax (maximum subtracted, exponentials \`wexp\`, their sum), the bank rows are mixed with
  the softmax weights, the query is added back, and the result is normalised to mean zero and unit variance and
  sent through an affine map (\`layerNorm\`).

  Two arrangements of this computation are compared. One scales the unit query BEFORE the inner product and
  divides by the sum of exponentials AFTER mixing (\`scoreEarly\`, \`mixLate\`); the other scales the inner product and
  divides each exponential by the sum before mixing (\`scoreLate\`, \`mixEarly\`). On real numbers the two agree by
  distributivity:  Σ (a·c)·b = (Σ a·b)·c  and  (Σ e·n)·(1/S) = Σ (e/S)·n.  On the extended reals these laws need the
  terms to be real numbers and \`S\` to be a positive real, which is what the finiteness lemmas below provide:
  a real row has a real unit row; real scores have a real maximum; the exponentials are positive reals and so is their sum.
-/
import Idealize.ShloMosaic.PureOps.Ideal.Laws

noncomputable section

namespace Cert.Retrieval

open Idealize.ShloMosaic

/-! ## Real and positive-real extended reals -/

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsPos.isReal {x : EReal} (h : IsPos x) : IsReal x := let ⟨r, _, e⟩ := h; ⟨r, e⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

theorem IsPos.sum {ι : Type*} [Fintype ι] [Nonempty ι] {f : ι → EReal} (h : ∀ i, IsPos (f i)) : IsPos (∑ i, f i) := by
  choose g hg0 hg using h
  exact ⟨∑ i, g i, Finset.sum_pos (fun i _ => hg0 i) Finset.univ_nonempty,
    by rw [coe_sum]; exact Finset.sum_congr rfl fun i _ => hg i⟩

/-- Dividing a real by a positive real gives a real. -/
theorem IsReal.div_pos {x y : EReal} (hx : IsReal x) (hy : IsPos y) : IsReal (Ideal.div x y) := by
  obtain ⟨a, rfl⟩ := hx; obtain ⟨b, hb, rfl⟩ := hy
  rw [Ideal.div_coe hb.ne']
  exact ⟨a * (1 / b), (EReal.coe_mul _ _).symm⟩

/-- A fold of \`max\` from \`⊥\` over real values is \`⊥\` on the empty set and real otherwise. -/
theorem fold_max_real {ι : Type*} [DecidableEq ι] (s : Finset ι) (f : ι → EReal) (h : ∀ i, IsReal (f i)) :
    (s = ∅ ∧ s.fold max ⊥ f = ⊥) ∨ IsReal (s.fold max ⊥ f) := by
  induction s using Finset.induction_on with
  | empty => exact Or.inl ⟨rfl, rfl⟩
  | insert a s ha ih =>
    right
    rw [Finset.fold_insert ha]
    obtain ⟨r, hr⟩ := h a
    rcases ih with ⟨_, e⟩ | ⟨q, hq⟩
    · rw [e, max_eq_left bot_le]; exact ⟨r, hr⟩
    · rw [hr, hq]; exact ⟨max r q, (EReal.coe_strictMono.monotone.map_max (a := r) (b := q)).symm⟩

/-! ## The constants -/

/-- The floor under a norm: the f32 nearest to 1e-12. -/
def normFloor : EReal := Ideal.ofBits .f32 0x2B8CBCCC#32
/-- The scale of the scores, 0.3125. -/
def scoreScale : EReal := Ideal.ofBits .f32 0x3EA00000#32
/-- The f32 one. -/
def oneF : EReal := Ideal.ofBits .f32 0x3F800000#32
/-- The f32 minus infinity. -/
def negInf : EReal := Ideal.ofBits .f32 0xFF800000#32
/-- The row length as a float, 1024. -/
def rowLen : EReal := Ideal.ofBits .f32 0x44800000#32
/-- The constant added to a variance: the f32 nearest to 1e-5. -/
def varFloor : EReal := Ideal.ofBits .f32 0x3727C5AC#32

theorem normFloor_pos : IsPos normFloor := by
  refine ⟨(1 * ((2 ^ 23 + 0x0CBCCC : ℕ) : ℝ) * (2 : ℝ) ^ ((0x57 : ℤ) - 127 - 23)), by positivity, ?_⟩
  simp [normFloor, Ideal.ofBits, Ideal.ieee, -EReal.coe_mul]

theorem scoreScale_real : IsReal scoreScale := by
  refine ⟨(1 * ((2 ^ 23 + 0x200000 : ℕ) : ℝ) * (2 : ℝ) ^ ((0x7D : ℤ) - 127 - 23)), ?_⟩
  simp [scoreScale, Ideal.ofBits, Ideal.ieee, -EReal.coe_mul]

theorem oneF_eq : oneF = 1 := by
  simp [oneF, Ideal.ofBits, Ideal.ieee, -EReal.coe_mul]; norm_num

theorem negInf_eq : negInf = ⊥ := by
  simp [negInf, Ideal.ofBits, Ideal.ieee]

/-! ## The row functions -/

variable {n m : ℕ}

/-- A row over its norm, the norm floored at \`normFloor\`. -/
def unitRow (v : Fin n → EReal) (d : Fin n) : EReal :=
  Ideal.div (v d) (max (Ideal.sqrt (∑ k, v k * v k)) normFloor)

/-- Scores with the scale applied to the unit query before the inner product. -/
def scoreEarly (x : Fin n → EReal) (N : Fin m → Fin n → EReal) (j : Fin m) : EReal :=
  ∑ k, (unitRow x k * scoreScale) * N j k

/-- Scores with the scale applied to the inner product. -/
def scoreLate (x : Fin n → EReal) (N : Fin m → Fin n → EReal) (j : Fin m) : EReal :=
  (∑ k, unitRow x k * N j k) * scoreScale

/-- The largest score. -/
def rowMax (s : Fin m → EReal) : EReal := (Finset.univ : Finset (Fin m)).fold max negInf s

/-- The exponential of a score below the largest. -/
def wexp (s : Fin m → EReal) (j : Fin m) : EReal := Ideal.exp (s j - rowMax s)

/-- The bank mixed with the exponentials, the division by their sum after mixing; the query added back. -/
def mixLate (x : Fin n → EReal) (N : Fin m → Fin n → EReal) (d : Fin n) : EReal :=
  (∑ j, wexp (scoreEarly x N) j * N j d) * Ideal.div oneF (∑ j, wexp (scoreEarly x N) j) + x d

/-- The bank mixed with the softmax weights (each exponential over the sum); the query added back. -/
def mixEarly (x : Fin n → EReal) (N : Fin m → Fin n → EReal) (d : Fin n) : EReal :=
  (∑ j, Ideal.div (wexp (scoreLate x N) j) (∑ j', wexp (scoreLate x N) j') * N j d) + x d

/-- The mean of a row. -/
def mean (h : Fin n → EReal) : EReal := Ideal.div (∑ k, h k) rowLen

/-- A row centred, divided by its standard deviation, scaled and shifted. -/
def layerNorm (h γ β : Fin n → EReal) (d : Fin n) : EReal :=
  ((h d - mean h) * Ideal.rsqrt (Ideal.div (∑ k, (h k - mean h) * (h k - mean h)) rowLen + varFloor)) * γ d + β d

/-! ## Finiteness -/

theorem norm_pos {v : Fin n → EReal} (hv : ∀ k, IsReal (v k)) :
    IsPos (max (Ideal.sqrt (∑ k, v k * v k)) normFloor) := by
  obtain ⟨S, hS⟩ := IsReal.sum (fun k => (hv k).mul (hv k))
  obtain ⟨e, he0, he⟩ := normFloor_pos
  rw [hS, he, Ideal.sqrt_coe]
  split
  · rw [max_eq_right bot_le]; exact ⟨e, he0, rfl⟩
  · exact ⟨max (Real.sqrt S) e, lt_max_of_lt_right he0, (EReal.coe_strictMono.monotone.map_max (a := Real.sqrt S) (b := e)).symm⟩

theorem unitRow_real {v : Fin n → EReal} (hv : ∀ k, IsReal (v k)) (d : Fin n) : IsReal (unitRow v d) :=
  (hv d).div_pos (norm_pos hv)

theorem scoreEarly_real {x : Fin n → EReal} {N : Fin m → Fin n → EReal} (hx : ∀ k, IsReal (x k))
    (hN : ∀ j k, IsReal (N j k)) (j : Fin m) : IsReal (scoreEarly x N j) :=
  IsReal.sum fun k => ((unitRow_real hx k).mul scoreScale_real).mul (hN j k)

theorem rowMax_real (hm : 0 < m) {s : Fin m → EReal} (hs : ∀ j, IsReal (s j)) : IsReal (rowMax s) := by
  unfold rowMax; rw [negInf_eq]
  rcases fold_max_real Finset.univ s hs with ⟨e, _⟩ | h
  · exact absurd e (Finset.univ_nonempty_iff.mpr ⟨⟨0, hm⟩⟩).ne_empty
  · exact h

theorem wexp_pos (hm : 0 < m) {s : Fin m → EReal} (hs : ∀ j, IsReal (s j)) (j : Fin m) : IsPos (wexp s j) := by
  obtain ⟨a, ha⟩ := hs j
  obtain ⟨b, hb⟩ := rowMax_real hm hs
  unfold wexp
  rw [ha, hb, ← EReal.coe_sub, Ideal.exp_coe]
  exact ⟨Real.exp (a - b), Real.exp_pos _, rfl⟩

/-! ## The two arrangements agree -/

/-- Scaling every left factor of an inner product of reals scales the inner product. -/
theorem score_eq {x : Fin n → EReal} {N : Fin m → Fin n → EReal} (hx : ∀ k, IsReal (x k))
    (hN : ∀ j k, IsReal (N j k)) : scoreEarly x N = scoreLate x N := by
  funext j
  unfold scoreEarly scoreLate
  choose a ha using unitRow_real hx
  choose b hb using hN j
  obtain ⟨c, hc⟩ := scoreScale_real
  simp only [ha, hb, hc, ← EReal.coe_mul, ← coe_sum]
  rw [Finset.sum_mul]
  exact congrArg _ (Finset.sum_congr rfl fun k _ => by ring)

/-- Dividing a mix of real rows with positive real weights by the weights' sum, after or before mixing. -/
theorem mix_eq (hm : 0 < m) {x : Fin n → EReal} {N : Fin m → Fin n → EReal} (hx : ∀ k, IsReal (x k))
    (hN : ∀ j k, IsReal (N j k)) : mixLate x N = mixEarly x N := by
  funext d
  unfold mixLate mixEarly
  rw [← score_eq hx hN]
  have : Nonempty (Fin m) := ⟨⟨0, hm⟩⟩
  have hs := scoreEarly_real hx hN
  choose e he0 he using wexp_pos hm hs
  choose b hb using fun j => hN j d
  have hS : (0 : ℝ) < ∑ j, e j := Finset.sum_pos (fun j _ => he0 j) Finset.univ_nonempty
  simp only [he, hb, oneF_eq, ← coe_sum, Ideal.div_coe hS.ne', ← EReal.coe_mul, ← EReal.coe_one]
  refine congrArg (· + x d) (congrArg _ ?_)
  rw [Finset.sum_mul]
  exact Finset.sum_congr rfl fun j _ => by ring

end Cert.Retrieval

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.RowStages.lean ====
/-
  The stages of a kernel body that works on the rows of an \`[a, b]\` block, read at an index \`(p, q)\` as the row
  functions of \`Rows\`: a row reduction along the lanes is kept as a column \`[a, 1]\`, combined there with constants,
  and broadcast back over the lanes, so that at \`(p, q)\` it is a function of row \`p\` alone.

  • \`unitRow_stage\`: a block divided by its rows' floored norms reads \`unitRow\` of row \`p\` at \`q\`.
  • \`wexp_stage\`: the exponential of a block minus its rows' lane maxima reads \`wexp\` of row \`p\` at lane \`j\`.
  • \`invSum_stage\`: one over the rows' lane sums, broadcast over \`c\` lanes, reads \`1 / Σ\` of row \`p\`.
  • \`mean_stage\`, \`centred_stage\`, \`variance_stage\`: a row's mean as a column entry, the row minus its mean, and the mean of
    the squares of that.
-/
import proofs.«124981_j28509992911130_2_alg».proof.Proof.Rows
import proofs.«124981_j28509992911130_2_alg».proof.Proof.LibRowOps
import proofs.«124981_j28509992911130_2_alg».proof.Proof.LibKeepdims
import Idealize.ShloMosaic.Lib.Pipeline.Value
import Idealize.ShloMosaic.Lib.ValueLayout

noncomputable section

namespace Cert.Retrieval

open Idealize.ShloMosaic Idealize.ShloMosaic.ValueIdx

variable {a b c : ℕ}

/-- Row \`p\` of a block over its floored norm. -/
theorem unitRow_stage (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (p : Fin a) (q : Fin b) :
    divf v (broadcastTo ⟨2, ![a, b]⟩ (maximumf (sqrt (shapeCast ⟨2, ![a, 1]⟩
        (multiReduction (F := Ideal) .add [1] ⟨1, ![a]⟩ (mulf v v) 0x00000000#32 hR hφ hacc) hC))
        (broadcast ⟨2, ![a, 1]⟩ (Scalar.ofBits (F := Ideal) .f32 0x2B8CBCCC#32))) hB) (ix2 p q)
      = unitRow (fun k => v (ix2 p k)) q := by
  show Ideal.div (v (ix2 p q)) (broadcastTo ⟨2, ![a, b]⟩ _ hB (ix2 p q)) = _
  rw [Keepdims.broadcastTo_a1_ab_apply]
  show Ideal.div _ (max (Ideal.sqrt (shapeCast ⟨2, ![a, 1]⟩ _ hC (ix2 p 0))) _) = _
  rw [Keepdims.shapeCast_a_a1_apply, Keepdims.rowSum_apply]
  rfl

/-- The exponential of an entry of row \`p\` below the row's maximum. -/
theorem wexp_stage (S : FVec Ideal ⟨2, ![a, b]⟩ .f32) (hR : (⟨2, ![a, b]⟩ : Shape).Reduces [1] ⟨1, ![a]⟩)
    (hφ : FKind.Formats .f32) (hacc : (0xFF800000#32 : BitVec 32) = FKind.maximumf.neutral .f32 hφ)
    (hC : (⟨1, ![a]⟩ : Shape).ShapeCasts ⟨2, ![a, 1]⟩) (hB : (⟨2, ![a, 1]⟩ : Shape).Broadcasts ⟨2, ![a, b]⟩)
    (p : Fin a) (j : Fin b) :
    exp (subf S (broadcastTo ⟨2, ![a, b]⟩ (shapeCast ⟨2, ![a, 1]⟩
        (multiReduction (F := Ideal) .maximumf [1] ⟨1, ![a]⟩ S 0xFF800000#32 hR hφ hacc) hC) hB)) (ix2 p j)
      = wexp (fun j' => S (ix2 p j')) j := by
  show Ideal.exp (S (ix2 p j) - broadcastTo ⟨2, ![a, b]⟩ _ hB (ix2 p j)) = _
  rw [RowOps.spreadColumn_apply, RowOps.laneMax_apply]
  rfl

/-- One over the sum of row \`p\`, the same at every lane \`d\` of the \`c\` it is broadcast over. -/
theorem invSum_stage (E : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩)
    (p : Fin a) (d : Fin c) :
    broadcastTo ⟨2, ![a, c]⟩ (divf (broadcast ⟨2, ![a, 1]⟩ (Scalar.ofBits (F := Ideal) .f32 0x3F800000#32))
        (shapeCast ⟨2, ![a, 1]⟩ (multiReduction (F := Ideal) .add [1] ⟨1, ![a]⟩ E 0x00000000#32 hR hφ hacc) hC)) hB (ix2 p d)
      = Ideal.div oneF (∑ j, E (ix2 p j)) := by
  rw [Keepdims.broadcastTo_a1_ab_apply]
  show Ideal.div _ (shapeCast ⟨2, ![a, 1]⟩ _ hC (ix2 p 0)) = _
  rw [Keepdims.shapeCast_a_a1_apply, Keepdims.rowSum_apply]
  rfl

/-- The mean of row \`p\`, as the entry \`(p, 0)\` of a column. -/
theorem mean_stage (H : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (p : Fin a) :
    divf (shapeCast ⟨2, ![a, 1]⟩ (multiReduction (F := Ideal) .add [1] ⟨1, ![a]⟩ H 0x00000000#32 hR hφ hacc) hC)
        (broadcast ⟨2, ![a, 1]⟩ (Scalar.ofBits (F := Ideal) .f32 0x44800000#32)) (ix2 p (0 : Fin 1))
      = mean (fun k => H (ix2 p k)) := by
  show Ideal.div (shapeCast ⟨2, ![a, 1]⟩ _ hC (ix2 p 0)) _ = _
  rw [Keepdims.shapeCast_a_a1_apply, Keepdims.rowSum_apply]
  rfl

/-- Row \`p\` of a block minus a column entry of that row. -/
theorem centred_stage (H : FVec Ideal ⟨2, ![a, b]⟩ .f32) (M : FVec Ideal ⟨2, ![a, 1]⟩ .f32)
    (hB : (⟨2, ![a, 1]⟩ : Shape).Broadcasts ⟨2, ![a, b]⟩) (p : Fin a) (q : Fin b) :
    subf H (broadcastTo ⟨2, ![a, b]⟩ M hB) (ix2 p q) = H (ix2 p q) - M (ix2 p (0 : Fin 1)) := by
  show H (ix2 p q) - broadcastTo ⟨2, ![a, b]⟩ M hB (ix2 p q) = _
  rw [Keepdims.broadcastTo_a1_ab_apply]

/-- The mean of the squares of row \`p\` minus a column entry of that row, as a column entry. -/
theorem variance_stage (H : FVec Ideal ⟨2, ![a, b]⟩ .f32) (M : FVec Ideal ⟨2, ![a, 1]⟩ .f32)
    (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩) (p : Fin a) :
    divf (shapeCast ⟨2, ![a, 1]⟩ (multiReduction (F := Ideal) .add [1] ⟨1, ![a]⟩
          (mulf (subf H (broadcastTo ⟨2, ![a, b]⟩ M hB)) (subf H (broadcastTo ⟨2, ![a, b]⟩ M hB))) 0x00000000#32 hR hφ hacc) hC)
        (broadcast ⟨2, ![a, 1]⟩ (Scalar.ofBits (F := Ideal) .f32 0x44800000#32)) (ix2 p (0 : Fin 1))
      = Ideal.div (∑ k, (H (ix2 p k) - M (ix2 p (0 : Fin 1))) * (H (ix2 p k) - M (ix2 p (0 : Fin 1)))) rowLen := by
  show Ideal.div (shapeCast ⟨2, ![a, 1]⟩ _ hC (ix2 p 0)) _ = _
  rw [Keepdims.shapeCast_a_a1_apply, Keepdims.rowSum_apply]
  refine congrArg (Ideal.div · rowLen) (Finset.sum_congr rfl fun k _ => ?_)
  exact congrArg₂ (· * ·) (centred_stage H M hB p k) (centred_stage H M hB p k)

/-- A centred block times the reciprocal root of a column (plus a constant), times a row, plus a row. -/
theorem affine_stage (C : FVec Ideal ⟨2, ![a, b]⟩ .f32) (Vr : FVec Ideal ⟨2, ![a, 1]⟩ .f32) (e : Ideal .f32)
    (g bt : FVec Ideal ⟨2, ![1, b]⟩ .f32) (hB : (⟨2, ![a, 1]⟩ : Shape).Broadcasts ⟨2, ![a, b]⟩)
    (hS : (⟨2, ![1, b]⟩ : Shape).ShapeCasts ⟨2, ![1, b]⟩) (hB1 : (⟨2, ![1, b]⟩ : Shape).Broadcasts ⟨2, ![a, b]⟩)
    (p : Fin a) (q : Fin b) :
    addf (mulf (mulf C (broadcastTo ⟨2, ![a, b]⟩ (rsqrt (addf Vr (broadcast ⟨2, ![a, 1]⟩ e))) hB))
        (broadcastTo ⟨2, ![a, b]⟩ (shapeCast ⟨2, ![1, b]⟩ g hS) hB1))
      (broadcastTo ⟨2, ![a, b]⟩ (shapeCast ⟨2, ![1, b]⟩ bt hS) hB1) (ix2 p q)
      = ((C (ix2 p q) * Ideal.rsqrt (Vr (ix2 p (0 : Fin 1)) + e)) * g (ix2 (0 : Fin 1) q)) + bt (ix2 (0 : Fin 1) q) := by
  show ((C (ix2 p q) * broadcastTo ⟨2, ![a, b]⟩ _ hB (ix2 p q)) * broadcastTo ⟨2, ![a, b]⟩ _ hB1 (ix2 p q))
    + broadcastTo ⟨2, ![a, b]⟩ _ hB1 (ix2 p q) = _
  rw [Keepdims.broadcastTo_a1_ab_apply, broadcastTo_1b_ab_apply, broadcastTo_1b_ab_apply, shapeCast_self, shapeCast_self]
  rfl

end Cert.Retrieval

end
-- ==== Proof.Products.lean ====
/-
  The body's two matrix products into a zero accumulator, read at an index, on the extended reals.

  The first contracts the lanes of a \`[256, 1024]\` block with the lanes of the \`[4096, 1024]\` bank: entry \`(p, j)\` is
  the inner product of row \`p\` of the block with row \`j\` of the bank. The second contracts the lanes of a
  \`[256, 4096]\` block with the rows of the bank: entry \`(p, d)\` is the sum over \`j\` of entry \`(p, j)\` times entry \`(j, d)\`.
-/
import proofs.«124981_j28509992911130_2_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

/-! ## Rows against rows: the operands' indices -/

theorem rr_lhs_0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem rr_lhs_1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem rr_rhs_0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rr_rhs_1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- Rows against rows: \`(p, j)\` is \`Σ k, L (p, k) · R (j, k)\`. -/
theorem rowsByRows_apply (L : FVec Ideal S256x1024 .bf16) (R : FVec Ideal S4096x1024 .bf16) (p : Fin 256) (j : Fin 4096) :
    matmul dot_S256x1024_S4096x1024_S256x4096_1_1_0_0_n_n none L R (constant S256x4096 .f32 0x00000000#32) (ix2 p j)
      = ∑ k : Fin 1024, L (ix2 p k) * R (ix2 j k) := by
  show FloatOps.matmul dot_S256x1024_S4096x1024_S256x4096_1_1_0_0_n_n none L R (constant S256x4096 .f32 0x00000000#32) (ix2 p j) = _
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j) ((contrEquiv1 dot_S256x1024_S4096x1024_S256x4096_1_1_0_0_n_n 1024 rfl rfl).symm k) = ix2 p k := funext fun ax => Fin.ext (by
    match ax with
    | ⟨0, _⟩ => exact rr_lhs_0 _ _
    | ⟨1, _⟩ => exact (rr_lhs_1 _ _).trans hk)
  have er : dot_S256x1024_S4096x1024_S256x4096_1_1_0_0_n_n.rhsIdx (ix2 p j) ((contrEquiv1 dot_S256x1024_S4096x1024_S256x4096_1_1_0_0_n_n 1024 rfl rfl).symm k) = ix2 j k := funext fun ax => Fin.ext (by
    match ax with
    | ⟨0, _⟩ => exact rr_rhs_0 _ _
    | ⟨1, _⟩ => exact (rr_rhs_1 _ _).trans hk)
  rw [el, er]

/-! ## Rows against columns: the operands' indices -/

theorem rc_lhs_0 (i : S256x1024.Idx) (q : dot_S256x4096_S4096x1024_S256x1024_1_0_0_1_n_n.contr.Idx) : (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem rc_lhs_1 (i : S256x1024.Idx) (q : dot_S256x4096_S4096x1024_S256x1024_1_0_0_1_n_n.contr.Idx) : (dot_S256x4096_S4096x1024_S256x1024_1_0_0_1_n_n.lhsIdx i q 1).val = (q ⟨0, by decide⟩).val :=
  dot_S256x4096_S4096x1024_S256x1024_1_0_0_1_n_n.lhsIdx_val_of_single rfl i q
theorem rc_rhs_0 (i : S256x1024.Idx) (q : dot_S256x4096_S4096x1024_S256x1024_1_0_0_1_n_n.contr.Idx) : (dot_S256x4096_S4096x1024_S256x1024_1_0_0_1_n_n.rhsIdx i q 0).val = (q ⟨0, by decide⟩).val :=
  dot_S256x4096_S4096x1024_S256x1024_1_0_0_1_n_n.rhsIdx_val_of_single rfl i q
theorem rc_rhs_1 (i : S256x1024.Idx) (q : dot_S256x4096_S4096x1024_S256x1024_1_0_0_1_n_n.contr.Idx) : (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- Rows against columns: \`(p, d)\` is \`Σ j, L (p, j) · R (j, d)\`. -/
theorem rowsByCols_apply (L : FVec Ideal S256x4096 .bf16) (R : FVec Ideal S4096x1024 .bf16) (p : Fin 256) (d : Fin 1024) :
    matmul dot_S256x4096_S4096x1024_S256x1024_1_0_0_1_n_n none L R (constant S256x1024 .f32 0x00000000#32) (ix2 p d)
      = ∑ j : Fin 4096, L (ix2 p j) * R (ix2 j d) := by
  show FloatOps.matmul dot_S256x4096_S4096x1024_S256x1024_1_0_0_1_n_n none L R (constant S256x1024 .f32 0x00000000#32) (ix2 p d) = _
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p d) ((contrEquiv1 dot_S256x4096_S4096x1024_S256x1024_1_0_0_1_n_n 4096 rfl rfl).symm k) = ix2 p k := funext fun ax => Fin.ext (by
    match ax with
    | ⟨0, _⟩ => exact rc_lhs_0 _ _
    | ⟨1, _⟩ => exact (rc_lhs_1 _ _).trans hk)
  have er : dot_S256x4096_S4096x1024_S256x1024_1_0_0_1_n_n.rhsIdx (ix2 p d) ((contrEquiv1 dot_S256x4096_S4096x1024_S256x1024_1_0_0_1_n_n 4096 rfl rfl).symm k) = ix2 k d := funext fun ax => Fin.ext (by
    match ax with
    | ⟨0, _⟩ => exact (rc_rhs_0 _ _).trans hk
    | ⟨1, _⟩ => exact rc_rhs_1 _ _)
  rw [el, er]

end Cert.KernelIdeal.Products

end
-- ==== Proof.Blocks.lean ====
/-
  What the two kernel bodies compute, entry by entry, as the row functions of \`Rows\`.

  The first body takes a \`[512, 1024]\` block of the memory bank and divides each row by its floored norm:
  entry \`(p, q)\` is \`unitRow\` of row \`p\` at \`q\`.

  The second body takes a \`[256, 1024]\` block \`x\` of queries, the whole normalised bank \`N\`, and the affine
  parameters as \`[1, 1024]\` rows. Row \`p\` of its result depends on row \`p\` of \`x\` alone: the scaled unit query is
  scored against every bank row, the scores go through exponentials below their maximum, the bank is mixed with those
  and divided by their sum, the query is added (\`mixLate\`), and the row is normalised (\`layerNorm\`).
-/
import proofs.«124981_j28509992911130_2_alg».proof.Proof.Gen.KernelIdeal.Skeleton
import proofs.«124981_j28509992911130_2_alg».proof.Proof.RowStages
import proofs.«124981_j28509992911130_2_alg».proof.Proof.Products
import Idealize.ShloMosaic.Lib.Pipeline.Value
import Idealize.ShloMosaic.Lib.ValueLayout

noncomputable section

namespace Cert.KernelIdeal.Blocks

open Cert.KernelIdeal Cert.KernelIdeal.Gen Cert.Retrieval Idealize.ShloMosaic Idealize.ShloMosaic.ValueIdx

/-! ## The bank's body -/

/-- Entry \`(p, q)\` of a normalised bank block: row \`p\` over its floored norm, at \`q\`. -/
theorem bank_apply (x0 : FVec Ideal S512x1024 .f32) (p : Fin 512) (q : Fin 1024) :
    k0_pay1 (F := Ideal) x0 (ix2 p q) = unitRow (fun k => x0 (ix2 p k)) q :=
  unitRow_stage x0 reduces_S512x1024_S512 (.inl rfl) rfl shapeCasts_S512_S512x1 broadcasts_S512x1_S512x1024 p q

/-! ## The query body, stage by stage -/

variable (x0 : FVec Ideal S256x1024 .f32) (x1 : FVec Ideal S4096x1024 .bf16)

/-- The unit query rows, scaled. -/
def scaledUnit : FVec Ideal S256x1024 .bf16 :=
  truncf .bf16 (mulf (divf x0 (broadcastTo S256x1024 (maximumf (sqrt (shapeCast S256x1
      (multiReduction .add [1] S256 (mulf x0 x0) 0x00000000#32 reduces_S256x1024_S256 (.inl rfl) rfl) shapeCasts_S256_S256x1))
      (broadcast S256x1 (Scalar.ofBits .f32 0x2B8CBCCC#32))) broadcasts_S256x1_S256x1024))
    (broadcast S256x1024 (Scalar.ofBits .f32 0x3EA00000#32))) bitsLt_bf16_f32

theorem scaledUnit_apply (p : Fin 256) (q : Fin 1024) :
    scaledUnit x0 (ix2 p q) = unitRow (fun k => x0 (ix2 p k)) q * scoreScale :=
  congrArg (· * scoreScale)
    (unitRow_stage x0 reduces_S256x1024_S256 (.inl rfl) rfl shapeCasts_S256_S256x1 broadcasts_S256x1_S256x1024 p q)

/-- The scores of every query row against every bank row. -/
def scores : FVec Ideal S256x4096 .f32 :=
  matmul dot_S256x1024_S4096x1024_S256x4096_1_1_0_0_n_n none (scaledUnit x0) (shapeCast S4096x1024 x1 shapeCasts_S4096x1024_S4096x1024 : FVec Ideal S4096x1024 .bf16)
    (constant S256x4096 .f32 0x00000000#32)

theorem scores_apply (p : Fin 256) (j : Fin 4096) :
    scores x0 x1 (ix2 p j) = scoreEarly (fun k => x0 (ix2 p k)) (fun j k => x1 (ix2 j k)) j :=
  (Products.rowsByRows_apply _ _ p j).trans
    (Finset.sum_congr rfl fun k _ => congrArg₂ (· * ·) (scaledUnit_apply x0 p k)
      (congrFun (shapeCast_self x1 shapeCasts_S4096x1024_S4096x1024) (ix2 j k)))

/-- The exponentials of the scores below their row's maximum. -/
def expos : FVec Ideal S256x4096 .f32 :=
  exp (subf (scores x0 x1) (broadcastTo S256x4096 (shapeCast S256x1
    (multiReduction .maximumf [1] S256 (scores x0 x1) 0xFF800000#32 reduces_S256x4096_S256 (.inl rfl) rfl) shapeCasts_S256_S256x1)
    broadcasts_S256x1_S256x4096))

theorem expos_apply (p : Fin 256) (j : Fin 4096) :
    expos x0 x1 (ix2 p j) = wexp (scoreEarly (fun k => x0 (ix2 p k)) (fun j k => x1 (ix2 j k))) j :=
  (wexp_stage (scores x0 x1) reduces_S256x4096_S256 (.inl rfl) rfl shapeCasts_S256_S256x1 broadcasts_S256x1_S256x4096 p j).trans
    (congrArg (fun s => wexp s j) (funext fun j' => scores_apply x0 x1 p j'))

/-- The bank mixed with the exponentials, over their sum, plus the query. -/
def mixed : FVec Ideal S256x1024 .f32 :=
  addf (mulf (matmul dot_S256x4096_S4096x1024_S256x1024_1_0_0_1_n_n none (truncf .bf16 (expos x0 x1) bitsLt_bf16_f32 : FVec Ideal S256x4096 .bf16)
        (shapeCast S4096x1024 x1 shapeCasts_S4096x1024_S4096x1024 : FVec Ideal S4096x1024 .bf16) (constant S256x1024 .f32 0x00000000#32))
      (broadcastTo S256x1024 (divf (broadcast S256x1 (Scalar.ofBits .f32 0x3F800000#32)) (shapeCast S256x1
        (multiReduction .add [1] S256 (expos x0 x1) 0x00000000#32 reduces_S256x4096_S256 (.inl rfl) rfl) shapeCasts_S256_S256x1))
        broadcasts_S256x1_S256x1024)) x0

/-- The skeleton's term for the mixed rows is \`mixed\`. -/
theorem pay2_eq : k1_pay2 (F := Ideal) x0 x1 = mixed x0 x1 := rfl

theorem mixed_apply (p : Fin 256) (q : Fin 1024) :
    mixed x0 x1 (ix2 p q) = mixLate (fun k => x0 (ix2 p k)) (fun j k => x1 (ix2 j k)) q := by
  unfold mixed mixLate
  refine congrArg (· + x0 (ix2 p q)) (congrArg₂ (· * ·) ?_ ?_)
  · exact (Products.rowsByCols_apply _ _ p q).trans
      (Finset.sum_congr rfl fun j _ => congrArg₂ (· * ·) (expos_apply x0 x1 p j)
        (congrFun (shapeCast_self x1 shapeCasts_S4096x1024_S4096x1024) (ix2 j q)))
  · exact (invSum_stage (expos x0 x1) reduces_S256x4096_S256 (.inl rfl) rfl shapeCasts_S256_S256x1
        broadcasts_S256x1_S256x1024 p q).trans
      (congrArg (Ideal.div oneF) (Finset.sum_congr rfl fun j _ => expos_apply x0 x1 p j))

/-! ## The normalisation of the mixed rows -/

/-- The mean of a mixed row, as a column entry. -/
theorem pay3_apply (p : Fin 256) :
    k1_pay3 (F := Ideal) x0 x1 (ix2 p (0 : Fin 1)) = mean (fun k => k1_pay2 (F := Ideal) x0 x1 (ix2 p k)) :=
  mean_stage (k1_pay2 (F := Ideal) x0 x1) reduces_S256x1024_S256 (.inl rfl) rfl shapeCasts_S256_S256x1 p

/-- A mixed row minus its mean. -/
theorem pay5_apply (p : Fin 256) (q : Fin 1024) :
    k1_pay5 (F := Ideal) x0 x1 (ix2 p q) = k1_pay2 (F := Ideal) x0 x1 (ix2 p q) - mean (fun k => k1_pay2 (F := Ideal) x0 x1 (ix2 p k)) :=
  (centred_stage (k1_pay2 (F := Ideal) x0 x1) (k1_pay3 (F := Ideal) x0 x1) broadcasts_S256x1_S256x1024 p q).trans
    (congrArg (k1_pay2 (F := Ideal) x0 x1 (ix2 p q) - ·) (pay3_apply x0 x1 p))

/-- The mean of the squares of a centred mixed row, as a column entry. -/
theorem pay4_apply (p : Fin 256) :
    k1_pay4 (F := Ideal) x0 x1 (ix2 p (0 : Fin 1))
      = Ideal.div (∑ k, (k1_pay2 (F := Ideal) x0 x1 (ix2 p k) - mean (fun k => k1_pay2 (F := Ideal) x0 x1 (ix2 p k)))
          * (k1_pay2 (F := Ideal) x0 x1 (ix2 p k) - mean (fun k => k1_pay2 (F := Ideal) x0 x1 (ix2 p k)))) rowLen := by
  refine (variance_stage (k1_pay2 (F := Ideal) x0 x1) (k1_pay3 (F := Ideal) x0 x1) reduces_S256x1024_S256 (.inl rfl) rfl shapeCasts_S256_S256x1
    broadcasts_S256x1_S256x1024 p).trans ?_
  rw [pay3_apply]

/-- Entry \`(p, q)\` of the query body's result: the normalised mixed row \`p\` at \`q\`. -/
theorem query_apply (x2 x3 : FVec Ideal S1x1024 .f32) (p : Fin 256) (q : Fin 1024) :
    k1_pay1 (F := Ideal) (k1_pay4 (F := Ideal) x0 x1) (k1_pay5 (F := Ideal) x0 x1) (Scalar.ofBits .f32 0x3727C5AC#32) x2 x3 (ix2 p q)
      = layerNorm (mixLate (fun k => x0 (ix2 p k)) (fun j k => x1 (ix2 j k)))
          (fun k => x2 (ix2 (0 : Fin 1) k)) (fun k => x3 (ix2 (0 : Fin 1) k)) q := by
  have hm : (fun k => k1_pay2 (F := Ideal) x0 x1 (ix2 p k)) = mixLate (fun k => x0 (ix2 p k)) (fun j k => x1 (ix2 j k)) :=
    funext fun k => (congrFun (pay2_eq x0 x1) _).trans (mixed_apply x0 x1 p k)
  rw [← hm]
  refine (affine_stage (k1_pay5 (F := Ideal) x0 x1) (k1_pay4 (F := Ideal) x0 x1) (Scalar.ofBits .f32 0x3727C5AC#32) x2 x3 broadcasts_S256x1_S256x1024
    shapeCasts_S1x1024_S1x1024 broadcasts_S1x1024_S256x1024 p q).trans ?_
  rw [pay5_apply, pay4_apply]
  rfl

end Cert.KernelIdeal.Blocks

end
-- ==== Proof.Arrays.lean ====
/-
  From blocks to arrays: what each region leaves in its output array, as one function of the arrays it finds.

  The first region walks the \`[4096, 1024]\` memory bank in 8 blocks of 512 rows; block \`t\` of its output is the
  body's result on block \`t\` of the bank. A row's unit row depends on that row alone, so the output array is the bank
  with every row over its floored norm (\`unitBank\`), and the 8 blocks cover it: row \`r\` is in block \`r / 512\`.

  The second region walks the \`[16384, 1024]\` queries in 64 blocks of 256 rows, with the whole normalised bank and
  the two \`[1, 1024]\` parameter rows resident (their one block is the whole array at every point). Row \`r\` of its
  output is the normalised mix of row \`r\` of the queries with the bank (\`outRows\`); row \`r\` is in block \`r / 256\`.
-/
import proofs.«124981_j28509992911130_2_alg».proof.Proof.Gen.KernelIdeal.Frame
import proofs.«124981_j28509992911130_2_alg».proof.Proof.Blocks
import Idealize.ShloMosaic.Lib.Pipeline.Value

set_option maxRecDepth 16384

noncomputable section

namespace Cert.KernelIdeal.Arrays

open Cert.KernelIdeal Cert.KernelIdeal.Gen Cert.Retrieval
open Idealize.ShloMosaic Idealize.ShloMosaic.TcCoe Idealize.ShloMosaic.ValueIdx Idealize.SL.Sem
open Idealize.ShloMosaic.Pipeline (Dat)

/-! ## The whole-array functions -/

/-- The bank with every row over its floored norm. -/
def unitBank (A : S4096x1024.Idx → EReal) : S4096x1024.Idx → EReal :=
  fun i => unitRow (fun k => A (ix2 (i 0) k)) (i 1)

/-- Every query row mixed with the bank \`Nb\` and normalised with the parameter rows \`g\`, \`bt\`. -/
def outRows (X : S16384x1024.Idx → EReal) (Nb : S4096x1024.Idx → EReal) (g bt : S1x1024.Idx → EReal) :
    S16384x1024.Idx → EReal :=
  fun i => layerNorm (mixLate (fun k => X (ix2 (i 0) k)) (fun j k => Nb (ix2 j k)))
    (fun k => g (ix2 (0 : Fin 1) k)) (fun k => bt (ix2 (0 : Fin 1) k)) (i 1)

/-! ## A block's entries as the whole-array function at the block's place -/

/-- A bank block whose entries are the array's at \`e\`, \`e\` keeping the lane and sending a row to a row:
    the body's result at \`y\` is \`unitBank\` at \`e y\`. -/
theorem bankBlock_value (X : S4096x1024.Idx → EReal) (e : S512x1024.Idx → S4096x1024.Idx) (B : FVec Ideal S512x1024 .f32)
    (hB : ∀ z, B z = X (e z)) (he0 : ∀ z z' : S512x1024.Idx, z 0 = z' 0 → e z 0 = e z' 0)
    (he1 : ∀ z : S512x1024.Idx, (e z 1).val = (z 1).val) (y : S512x1024.Idx) :
    k0_pay1 (F := Ideal) B y = unitBank X (e y) := by
  refine (congrArg (k0_pay1 (F := Ideal) B) (eq_ix2 y)).trans ((Blocks.bank_apply B (y 0) (y 1)).trans ?_)
  unfold unitBank
  have h1 : e y 1 = y 1 := Fin.ext (he1 y)
  rw [h1]
  refine congrArg (fun v => unitRow v (y 1)) (funext fun k => (hB _).trans (congrArg X ?_))
  funext a
  match a with
  | ⟨0, _⟩ => exact he0 (ix2 (y 0) k) y rfl
  | ⟨1, _⟩ => exact Fin.ext (he1 (ix2 (y 0) k))

/-- A query block whose entries are the array's at \`e\` (\`e\` keeping the lane and sending a row to a row), beside the
    whole bank and the whole parameter rows: the body's result at \`y\` is \`outRows\` at \`e y\`. -/
theorem queryBlock_value (X : S16384x1024.Idx → EReal) (Nb : S4096x1024.Idx → EReal) (g bt : S1x1024.Idx → EReal)
    (e : S256x1024.Idx → S16384x1024.Idx) (B0 : FVec Ideal S256x1024 .f32) (B1 : FVec Ideal S4096x1024 .bf16)
    (B2 B3 : FVec Ideal S1x1024 .f32) (h0 : ∀ z, B0 z = X (e z)) (h1 : B1 = Nb) (h2 : B2 = g) (h3 : B3 = bt)
    (he0 : ∀ z z' : S256x1024.Idx, z 0 = z' 0 → e z 0 = e z' 0)
    (he1 : ∀ z : S256x1024.Idx, (e z 1).val = (z 1).val) (y : S256x1024.Idx) :
    k1_pay1 (F := Ideal) (k1_pay4 (F := Ideal) B0 B1) (k1_pay5 (F := Ideal) B0 B1) (Scalar.ofBits .f32 0x3727C5AC#32) B2 B3 y = outRows X Nb g bt (e y) := by
  subst h1 h2 h3
  refine (congrArg (k1_pay1 (F := Ideal) (k1_pay4 (F := Ideal) B0 B1) (k1_pay5 (F := Ideal) B0 B1) (Scalar.ofBits .f32 0x3727C5AC#32) B2 B3) (eq_ix2 y)).trans
    ((Blocks.query_apply B0 B1 B2 B3 (y 0) (y 1)).trans ?_)
  unfold outRows
  have h1 : e y 1 = y 1 := Fin.ext (he1 y)
  rw [h1]
  refine congrArg (fun v => layerNorm (mixLate v (fun j k => B1 (ix2 j k))) (fun k => B2 (ix2 (0 : Fin 1) k))
    (fun k => B3 (ix2 (0 : Fin 1) k)) (y 1)) (funext fun k => (h0 _).trans (congrArg X ?_))
  funext a
  match a with
  | ⟨0, _⟩ => exact he0 (ix2 (y 0) k) y rfl
  | ⟨1, _⟩ => exact Fin.ext (he1 (ix2 (y 0) k))

/-! ## The regions, at the contents \`V\` they are entered with -/

variable (V : (c : Dev nD) → (b : Ref sig .tc) → Buf (Elt Ideal) ((c : Thread nD τ).loc b))

theorem hz : (![0, 0] : Fin 2 → Nat) = fun _ => 0 := funext fun a => by fin_cases a <;> rfl

/-! ### The bank's region -/

/-- The printed index maps of the bank's region, decided over its 8 points: both windows are at block row \`t\`, lane block 0. -/
theorem bankIdx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point \`t\` writes back is block \`t\` of \`unitBank\` of the bank as the region finds it. -/
theorem bankFlushed (c : Dev nD) (t : Fin cfg0.N) :
    (dat0 V c).flushed 1 t = ((cfg0.win 1).blk t).view.read (Elt Ideal) (unitBank (V c main_arg1)) := by
  show (cfg0.win 1).cut (grid0.coords t) ((dat0 V c).after 1 t) = _
  rw [after0_1]
  unfold out0_1
  rw [View.canon_unit_zero hz]
  simp only [View.ld_unit_zero (S := S512x1024) hz]
  obtain ⟨e0, e1, e2, e3⟩ := bankIdx t
  funext y
  refine bankBlock_value (V c main_arg1) ((cfg0.win 1).blk t).view.emb (iblk0 V c 0 t) (fun z => ?_) (fun z z' h => ?_) (fun z => ?_) y
  · show V c main_arg1 (((cfg0.win 0).blk t).view.emb z) = V c main_arg1 (((cfg0.win 1).blk t).view.emb z)
    refine congrArg (V c main_arg1) (funext fun a => Fin.ext ?_)
    match a with
    | ⟨0, _⟩ => show win0_0.index t (0 : Fin 2) * 512 + 1 * (z 0).val = win0_1.index t (0 : Fin 2) * 512 + 1 * (z 0).val; omega
    | ⟨1, _⟩ => show win0_0.index t (1 : Fin 2) * 1024 + 1 * (z 1).val = win0_1.index t (1 : Fin 2) * 1024 + 1 * (z 1).val; omega
  · refine Fin.ext ?_
    show win0_1.index t (0 : Fin 2) * 512 + 1 * (z 0).val = win0_1.index t (0 : Fin 2) * 512 + 1 * (z' 0).val
    rw [h]
  · show win0_1.index t (1 : Fin 2) * 1024 + 1 * (z 1).val = (z 1).val
    omega

/-- An index of the bank is in point \`t\`'s output block iff each coordinate is in the block's range on its axis. -/
theorem mem_bankBlk (t : Fin cfg0.N) (i : S4096x1024.Idx) :
    i ∈ ((cfg0.win 1).blk t).view.set ↔ ∀ a : Fin 2, win0_1.index t a * S512x1024.size a ≤ (i a).val
      ∧ (i a).val < win0_1.index t a * S512x1024.size a + S512x1024.size a := by
  show i ∈ ((View.whole main_v0).slice (win0_1.rect t)).set ↔ _
  rw [View.set_slice_whole, Rect.mem_set_unit]
  exact Iff.rfl

/-- After the bank's region its output array is \`unitBank\` of the bank as the region finds it. -/
theorem bankFinal (c : Dev nD) : (dat0 V c).arrAt 1 cfg0.N = unitBank (V c main_arg1) :=
  (dat0 V c).arrAt_eq_of_cover 1 (unitBank (V c main_arg1)) (fun t _ => bankFlushed V c t) fun i => by
    have h0 : (i 0).val < 4096 := (i 0).isLt
    have h1 : (i 1).val < 1024 := (i 1).isLt
    have hN : grid0.N = 8 := N_0
    have hlt : (i 0).val / 512 < grid0.N := by rw [hN]; omega
    obtain ⟨e0, e1, e2, e3⟩ := bankIdx ⟨(i 0).val / 512, hlt⟩
    refine ⟨⟨(i 0).val / 512, hlt⟩, flush0_1 _, ?_⟩
    rw [mem_bankBlk]
    intro a
    match a with
    | ⟨0, _⟩ =>
      show win0_1.index ⟨(i 0).val / 512, hlt⟩ (0 : Fin 2) * 512 ≤ (i 0).val
        ∧ (i 0).val < win0_1.index ⟨(i 0).val / 512, hlt⟩ (0 : Fin 2) * 512 + 512
      rw [e2]; show (i 0).val / 512 * 512 ≤ (i 0).val ∧ (i 0).val < (i 0).val / 512 * 512 + 512; omega
    | ⟨1, _⟩ =>
      show win0_1.index ⟨(i 0).val / 512, hlt⟩ (1 : Fin 2) * 1024 ≤ (i 1).val
        ∧ (i 1).val < win0_1.index ⟨(i 0).val / 512, hlt⟩ (1 : Fin 2) * 1024 + 1024
      rw [e3]; omega

/-! ### The queries' region -/

/-- The printed index maps of the queries' region, decided over its 64 points: the query and output windows are at
    block row \`t\`, lane block 0; the bank's and the parameter rows' windows stay at block (0, 0). -/
theorem queryIdx : ∀ t : Fin cfg1.N, win1_0.index t (0 : Fin 2) = t.val ∧ win1_0.index t (1 : Fin 2) = 0
    ∧ win1_4.index t (0 : Fin 2) = t.val ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What point \`t\` writes back is block \`t\` of \`outRows\` of the arrays as the region finds them. -/
theorem queryFlushed (c : Dev nD) (t : Fin cfg1.N) :
    (dat1 V c).flushed 4 t = ((cfg1.win 4).blk t).view.read (Elt Ideal)
      (outRows (V c main_arg0) (V c main_v0) (V c main_v1) (V c main_v2)) := by
  show (cfg1.win 4).cut (grid1.coords t) ((dat1 V c).after 4 t) = _
  rw [after1_4]
  unfold out1_4
  rw [View.canon_unit_zero hz]
  simp only [View.ld_unit_zero (S := S256x1024) hz, View.ld_unit_zero (S := S4096x1024) hz, View.ld_unit_zero (S := S1x1024) hz]
  obtain ⟨e0, e1, e2, e3, e4, e5, e6, e7, e8, e9⟩ := queryIdx t
  funext y
  refine queryBlock_value (V c main_arg0) (V c main_v0) (V c main_v1) (V c main_v2) ((cfg1.win 4).blk t).view.emb
    (iblk1 V c 0 t) (iblk1 V c 1 t) (iblk1 V c 2 t) (iblk1 V c 3 t) (fun z => ?_) (funext fun z => ?_) (funext fun z => ?_)
    (funext fun z => ?_) (fun z z' h => ?_) (fun z => ?_) y
  · show V c main_arg0 (((cfg1.win 0).blk t).view.emb z) = V c main_arg0 (((cfg1.win 4).blk t).view.emb z)
    refine congrArg (V c main_arg0) (funext fun a => Fin.ext ?_)
    match a with
    | ⟨0, _⟩ => show win1_0.index t (0 : Fin 2) * 256 + 1 * (z 0).val = win1_4.index t (0 : Fin 2) * 256 + 1 * (z 0).val; omega
    | ⟨1, _⟩ => show win1_0.index t (1 : Fin 2) * 1024 + 1 * (z 1).val = win1_4.index t (1 : Fin 2) * 1024 + 1 * (z 1).val; omega
  · show V c main_v0 (((cfg1.win 1).blk t).view.emb z) = V c main_v0 z
    refine congrArg (V c main_v0) (funext fun a => Fin.ext ?_)
    match a with
    | ⟨0, _⟩ => show win1_1.index t (0 : Fin 2) * 4096 + 1 * (z 0).val = (z 0).val; omega
    | ⟨1, _⟩ => show win1_1.index t (1 : Fin 2) * 1024 + 1 * (z 1).val = (z 1).val; omega
  · show V c main_v1 (((cfg1.win 2).blk t).view.emb z) = V c main_v1 z
    refine congrArg (V c main_v1) (funext fun a => Fin.ext ?_)
    match a with
    | ⟨0, _⟩ => show win1_2.index t (0 : Fin 2) * 1 + 1 * (z 0).val = (z 0).val; omega
    | ⟨1, _⟩ => show win1_2.index t (1 : Fin 2) * 1024 + 1 * (z 1).val = (z 1).val; omega
  · show V c main_v2 (((cfg1.win 3).blk t).view.emb z) = V c main_v2 z
    refine congrArg (V c main_v2) (funext fun a => Fin.ext ?_)
    match a with
    | ⟨0, _⟩ => show win1_3.index t (0 : Fin 2) * 1 + 1 * (z 0).val = (z 0).val; omega
    | ⟨1, _⟩ => show win1_3.index t (1 : Fin 2) * 1024 + 1 * (z 1).val = (z 1).val; omega
  · refine Fin.ext ?_
    show win1_4.index t (0 : Fin 2) * 256 + 1 * (z 0).val = win1_4.index t (0 : Fin 2) * 256 + 1 * (z' 0).val
    rw [h]
  · show win1_4.index t (1 : Fin 2) * 1024 + 1 * (z 1).val = (z 1).val
    omega

/-- An index of the result is in point \`t\`'s output block iff each coordinate is in the block's range on its axis. -/
theorem mem_queryBlk (t : Fin cfg1.N) (i : S16384x1024.Idx) :
    i ∈ ((cfg1.win 4).blk t).view.set ↔ ∀ a : Fin 2, win1_4.index t a * S256x1024.size a ≤ (i a).val
      ∧ (i a).val < win1_4.index t a * S256x1024.size a + S256x1024.size a := by
  show i ∈ ((View.whole main_v3).slice (win1_4.rect t)).set ↔ _
  rw [View.set_slice_whole, Rect.mem_set_unit]
  exact Iff.rfl

/-- After the queries' region its output array is \`outRows\` of the arrays as the region finds them. -/
theorem queryFinal (c : Dev nD) :
    (dat1 V c).arrAt 4 cfg1.N = outRows (V c main_arg0) (V c main_v0) (V c main_v1) (V c main_v2) :=
  (dat1 V c).arrAt_eq_of_cover 4 (outRows (V c main_arg0) (V c main_v0) (V c main_v1) (V c main_v2))
    (fun t _ => queryFlushed V c t) fun i => by
    have h0 : (i 0).val < 16384 := (i 0).isLt
    have h1 : (i 1).val < 1024 := (i 1).isLt
    have hN : grid1.N = 64 := N_1
    have hlt : (i 0).val / 256 < grid1.N := by rw [hN]; omega
    obtain ⟨e0, e1, e2, e3, -⟩ := queryIdx ⟨(i 0).val / 256, hlt⟩
    refine ⟨⟨(i 0).val / 256, hlt⟩, flush1_4 _, ?_⟩
    rw [mem_queryBlk]
    intro a
    match a with
    | ⟨0, _⟩ =>
      show win1_4.index ⟨(i 0).val / 256, hlt⟩ (0 : Fin 2) * 256 ≤ (i 0).val
        ∧ (i 0).val < win1_4.index ⟨(i 0).val / 256, hlt⟩ (0 : Fin 2) * 256 + 256
      rw [e2]; show (i 0).val / 256 * 256 ≤ (i 0).val ∧ (i 0).val < (i 0).val / 256 * 256 + 256; omega
    | ⟨1, _⟩ =>
      show win1_4.index ⟨(i 0).val / 256, hlt⟩ (1 : Fin 2) * 1024 ≤ (i 1).val
        ∧ (i 1).val < win1_4.index ⟨(i 0).val / 256, hlt⟩ (1 : Fin 2) * 1024 + 1024
      rw [e3]; omega

end Cert.KernelIdeal.Arrays

end
-- ==== Proof.KernelValue.lean ====
/-
  The idealized kernel's result array as one function of the launch memory.

  The second region is entered with the queries as launched, with the first region's output — the memory bank with
  every row over its floored norm — and with the two parameter vectors reshaped to \`[1, 1024]\` rows. So the result
  array is \`outRows\` of the queries, the unit bank, and the two reshaped vectors.
-/
import proofs.«124981_j28509992911130_2_alg».proof.Proof.KernelRun
import proofs.«124981_j28509992911130_2_alg».proof.Proof.Arrays
import Idealize.ShloMosaic.Lib.StableHlo.Run

set_option maxRecDepth 16384

noncomputable section

namespace Cert.KernelIdeal.Out

open Cert.KernelIdeal Cert.KernelIdeal.Gen Cert.KernelIdeal.Arrays Cert.Retrieval
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The reshapes between the regions write neither the queries nor the first region's output. -/
theorem reshapes_keep (c : Dev nD) (b : Ref sig .tc) (h1 : main_v1 ≠ b) (h2 : main_v2 ≠ b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1.symm, StableHlo.devRef_ne_of_ne h2.symm⟩))

/-- The second region finds the queries as launched. -/
theorem entry_queries (c : Dev nD) : V2 m ρ c main_arg0 = m ((c : Thread nD τ).loc main_arg0) :=
  (reshapes_keep m ρ c main_arg0 (by decide) (by decide)).trans (W1_of_ne m ρ c main_arg0 (by decide))

/-- The second region finds the first region's output: the unit bank of the memory as launched. -/
theorem entry_bank (c : Dev nD) : V2 m ρ c main_v0 = unitBank (m ((c : Thread nD τ).loc main_arg1)) :=
  (reshapes_keep m ρ c main_v0 (by decide) (by decide)).trans
    ((W1_arr m ρ c 1).trans (bankFinal (V0 m ρ) c))

/-- The second region finds the scale vector reshaped to a row. -/
theorem entry_scale (c : Dev nD) :
    (V2 m ρ c main_v1 : S1x1024.Idx → EReal) = shapeCast S1x1024 (m ((c : Thread nD τ).loc main_arg2)) shapeCasts_S1024_S1x1024 := by
  show StableHlo.after hostOps1 (W1 m ρ c) (Proc.devRef .tc main_v1) = _
  after_results
  exact congrArg (fun v => shapeCast S1x1024 v shapeCasts_S1024_S1x1024) (W1_of_ne m ρ c main_arg2 (by decide))

/-- The second region finds the shift vector reshaped to a row. -/
theorem entry_shift (c : Dev nD) :
    (V2 m ρ c main_v2 : S1x1024.Idx → EReal) = shapeCast S1x1024 (m ((c : Thread nD τ).loc main_arg3)) shapeCasts_S1024_S1x1024 := by
  show StableHlo.after hostOps1 (W1 m ρ c) (Proc.devRef .tc main_v2) = _
  after_results
  exact congrArg (fun v => shapeCast S1x1024 v shapeCasts_S1024_S1x1024) (W1_of_ne m ρ c main_arg3 (by decide))

/-- The kernel's result array, as a function of the launch memory. -/
def result (c : Dev nD) : S16384x1024.Idx → EReal :=
  outRows (m ((c : Thread nD τ).loc main_arg0)) (unitBank (m ((c : Thread nD τ).loc main_arg1)))
    (shapeCast S1x1024 (m ((c : Thread nD τ).loc main_arg2)) shapeCasts_S1024_S1x1024)
    (shapeCast S1x1024 (m ((c : Thread nD τ).loc main_arg3)) shapeCasts_S1024_S1x1024)

/-- The last boundary's contents at the result's reference are \`result\`. -/
theorem result_value (c : Dev nD) : W3 m ρ c (Proc.devRef .tc main_v3) = result m c := by
  refine (result_eq m ρ c).trans ((queryFinal (V2 m ρ) c).trans ?_)
  unfold result
  rw [entry_queries, entry_bank, entry_scale, entry_shift]

/-- The run with the result array at \`result\`. -/
theorem run_value : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (run m ρ)

end Cert.KernelIdeal.Out

end
-- ==== Proof.Finite.lean ====
/-
  What the precondition gives: every entry of the queries and of the memory bank is a real number.

  The precondition is a conjunction of four \`all\`s, one per argument, each saying that the absolute value of every
  entry is below \`+∞\`. An extended real whose absolute value \`max x (-x)\` is below \`⊤\` is neither \`⊤\` nor \`⊥\`.
-/
import proofs.«124981_j28509992911130_2_alg».proof.Pre_finite_inputs
import proofs.«124981_j28509992911130_2_alg».proof.Proof.Rows
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Retrieval Cert.Pre_finite_inputs

instance : Subsingleton S_.Idx := ⟨fun a b => funext fun d => d.elim0⟩

/-- The f32 pattern of \`+∞\` is \`⊤\`. -/
theorem posInf_eq : Ideal.ofBits .f32 0x7F800000#32 = ⊤ := by
  simp [Ideal.ofBits, Ideal.ieee]

/-- An extended real whose absolute value compares below \`+∞\` is a real number. -/
theorem isReal_of_abs_lt_inf (x : EReal)
    (h : Ideal.cmp .olt (max x (-x)) (Ideal.ofBits .f32 0x7F800000#32) = 1#1) : IsReal x := by
  rw [posInf_eq] at h
  have hlt : max x (-x) < ⊤ := by
    by_contra hc
    have h0 : Ideal.cmp .olt (max x (-x)) ⊤ = 0#1 := by
      unfold Ideal.cmp
      simp [hc]
    rw [h0] at h
    exact absurd h (by decide)
  induction x using EReal.rec with
  | bot => exact absurd hlt (by simp)
  | coe r => exact ⟨r, rfl⟩
  | top => exact absurd hlt (by simp)

variable [Facts]

/-- Under the precondition the queries and the memory bank hold real numbers. -/
theorem real_of_pre (a0 : FVec Ideal S16384x1024 .f32) (a1 : FVec Ideal S4096x1024 .f32) (a2 a3 : FVec Ideal S1024 .f32)
    (h : fn (F := Ideal) a0 a1 a2 a3 = fun _ => 1#1) : (∀ i, IsReal (a0 i)) ∧ (∀ i, IsReal (a1 i)) := by
  have h0 := congrFun h ValueIdx.ix0
  dsimp only [fn, fn_part1] at h0
  obtain ⟨h13, -⟩ := IntOp.andi_eq_one.1 h0
  obtain ⟨h8, -⟩ := IntOp.andi_eq_one.1 h13
  obtain ⟨h3, h7⟩ := IntOp.andi_eq_one.1 h8
  exact ⟨fun i => isReal_of_abs_lt_inf (a0 i) (Host.reduce_andi_all _ _ _ _ _ h3 i),
    fun i => isReal_of_abs_lt_inf (a1 i) (Host.reduce_andi_all _ _ _ _ _ h7 i)⟩

end Cert.Pre_finite_inputs.Finite

end
-- ==== Proof.LibHostLaneMax.lean ====
/-
  The host's maximum along the lanes of a matrix, read at a row.

  A host reduction with \`max\` over axis 1 of an \`[a, b]\` array (as a softmax over the last axis of a matrix lowers)
  reads, at row \`p\`, the fold of \`max\`, from the initial value, over \`c : Fin b\` of the entries \`(p, c)\`.
  A general fact about shapes \`[a, b]\` and \`[a]\` at the ideal values: nothing here mentions a program.
-/
import Idealize.ShloMosaic.PureOps.Ideal.Laws
import Idealize.ShloMosaic.Lib.ValueIdx

namespace Cert.HostLaneMax

open Idealize.ShloMosaic Idealize.ShloMosaic.ValueIdx

variable {φ : FTy}

/-- The host's maximum over the LAST axis of an \`[a, b]\` array, at row \`p\`: the fold of \`max\`, from the initial value,
    over \`c : Fin b\` of the entries \`(p, c)\`. -/
theorem hostLaneMax_apply {a b : ℕ} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun c => x (ix2 p c)) := by
  refine (Host.reduce_eq_fold_single (FloatOps.maximumf (F := Ideal) (φ := φ)) x init h' h hu (ix1 p)).trans ?_
  show (Finset.univ : Finset (Fin b)).fold max (init (Shape.Idx.first hu)) (fun c => x (h.lift (ix1 p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl))

end Cert.HostLaneMax
-- ==== Proof.RefRows.lean ====
/-
  The reference, read row by row as the row functions of \`Rows\`.

  Every stage of the reference works on whole arrays, but each row of its result depends on the same row of the
  queries and on the whole memory bank: the queries and the bank are divided row by row by their floored norms
  (\`unitRow\`), the inner products are scaled (\`scoreLate\`), a softmax along the bank axis gives weights
  (\`wexp\` over their sum), the bank is mixed with the weights and the query added (\`mixEarly\`), and each row is
  normalised (\`layerNorm\`).
-/
import proofs.«124981_j28509992911130_2_alg».proof.Proof.Gen.ReferenceIdeal.Read
import proofs.«124981_j28509992911130_2_alg».proof.Proof.Rows
import proofs.«124981_j28509992911130_2_alg».proof.Proof.LibHostLaneMax

noncomputable section

namespace Cert.ReferenceIdeal.Rows

open Cert.ReferenceIdeal Cert.ReferenceIdeal.Gen Cert.ReferenceIdeal.Read Cert.Retrieval Idealize.ShloMosaic Idealize.ShloMosaic.ValueIdx

/-! ## The stages' index maps at coordinates -/

section Indices
variable (b : Fin 16384) (j : Fin 4096) (d k : Fin 1024) (u : Fin 1)

theorem i1 : idx_main_v1 (ix1 b) k = ix2 b k := funext fun a => by match a with | ⟨0, _⟩ => rfl | ⟨1, _⟩ => rfl
theorem i2 : idx_main_v2 (ix2 b u) = ix1 b := funext fun a => by match a with | ⟨0, _⟩ => rfl
theorem i6 : idx_main_v6 (ix2 b d) = ix2 b (0 : Fin 1) := funext fun a => by match a with | ⟨0, _⟩ => rfl | ⟨1, _⟩ => rfl
theorem i9 : idx_main_v9 (ix1 j) k = ix2 j k := funext fun a => by match a with | ⟨0, _⟩ => rfl | ⟨1, _⟩ => rfl
theorem i10 : idx_main_v10 (ix2 j u) = ix1 j := funext fun a => by match a with | ⟨0, _⟩ => rfl
theorem i14 : idx_main_v14 (ix2 j d) = ix2 j (0 : Fin 1) := funext fun a => by match a with | ⟨0, _⟩ => rfl | ⟨1, _⟩ => rfl
theorem l16 : lidx_main_v16 (ix2 b j) k = ix2 b k := funext fun a => by match a with | ⟨0, _⟩ => rfl | ⟨1, _⟩ => rfl
theorem r16 : ridx_main_v16 (ix2 b j) k = ix2 j k := funext fun a => by match a with | ⟨0, _⟩ => rfl | ⟨1, _⟩ => rfl
theorem i22 : idx_main_v22 (ix2 b u) = ix1 b := funext fun a => by match a with | ⟨0, _⟩ => rfl
theorem i23 : idx_main_v23 (ix2 b j) = ix2 b (0 : Fin 1) := funext fun a => by match a with | ⟨0, _⟩ => rfl | ⟨1, _⟩ => rfl
theorem i26 : idx_main_v26 (ix1 b) j = ix2 b j := funext fun a => by match a with | ⟨0, _⟩ => rfl | ⟨1, _⟩ => rfl
theorem i27 : idx_main_v27 (ix2 b u) = ix1 b := funext fun a => by match a with | ⟨0, _⟩ => rfl
theorem i28 : idx_main_v28 (ix2 b j) = ix2 b (0 : Fin 1) := funext fun a => by match a with | ⟨0, _⟩ => rfl | ⟨1, _⟩ => rfl
theorem l30 : lidx_main_v30 (ix2 b d) j = ix2 b j := funext fun a => by match a with | ⟨0, _⟩ => rfl | ⟨1, _⟩ => rfl
theorem r30 : ridx_main_v30 (ix2 b d) j = ix2 j d := funext fun a => by match a with | ⟨0, _⟩ => rfl | ⟨1, _⟩ => rfl
theorem i32 : idx_main_v32 (ix1 b) k = ix2 b k := funext fun a => by match a with | ⟨0, _⟩ => rfl | ⟨1, _⟩ => rfl
theorem i33 : idx_main_v33 (ix2 b u) = ix1 b := funext fun a => by match a with | ⟨0, _⟩ => rfl
theorem i36 : idx_main_v36 (ix2 b d) = ix2 b (0 : Fin 1) := funext fun a => by match a with | ⟨0, _⟩ => rfl | ⟨1, _⟩ => rfl
theorem i39 : idx_main_v39 (ix1 b) k = ix2 b k := funext fun a => by match a with | ⟨0, _⟩ => rfl | ⟨1, _⟩ => rfl
theorem i40 : idx_main_v40 (ix2 b u) = ix1 b := funext fun a => by match a with | ⟨0, _⟩ => rfl
theorem i43 : idx_main_v43 (ix2 b d) = ix2 b (0 : Fin 1) := funext fun a => by match a with | ⟨0, _⟩ => rfl | ⟨1, _⟩ => rfl
theorem i48 : idx_main_v48 (ix2 b d) = ix2 b (0 : Fin 1) := funext fun a => by match a with | ⟨0, _⟩ => rfl | ⟨1, _⟩ => rfl
theorem i50 : idx_main_v50 (ix2 u d) = ix1 d := funext fun a => by match a with | ⟨0, _⟩ => rfl
theorem i51 : idx_main_v51 (ix2 b d) = ix2 (0 : Fin 1) d := funext fun a => by match a with | ⟨0, _⟩ => rfl | ⟨1, _⟩ => rfl
theorem i53 : idx_main_v53 (ix2 u d) = ix1 d := funext fun a => by match a with | ⟨0, _⟩ => rfl
theorem i54 : idx_main_v54 (ix2 b d) = ix2 (0 : Fin 1) d := funext fun a => by match a with | ⟨0, _⟩ => rfl | ⟨1, _⟩ => rfl

end Indices

variable (x0 : (⟨S16384x1024, .f32⟩ : BufTy).Contents (Elt Ideal)) (x1 : (⟨S4096x1024, .f32⟩ : BufTy).Contents (Elt Ideal))

/-! ## The stages -/

/-- The unit queries: row \`b\` over its floored norm. -/
theorem unitQuery_apply (b : Fin 16384) (d : Fin 1024) :
    val_main_v7 (F := Ideal) x0 (ix2 b d) = unitRow (fun k => x0 (ix2 b k)) d := by
  rw [val_main_v7_apply, val_main_v6_apply, i6, val_main_v5_apply, val_main_v3_apply, val_main_v2_apply, i2,
    val_main_v1_apply, val_main_v4_apply, val_main_cst_0_apply, val_main_cst_apply]
  simp only [i1, val_main_v0_apply, Ideal.hostDivf_def, Ideal.hostUnary_sqrt_def, Ideal.maximumf_def, Ideal.mulf_def,
    Ideal.ofBits_def, Ideal.ofBits_zero_f32, zero_add]
  rfl

/-- The unit bank: row \`j\` over its floored norm. -/
theorem unitBank_apply (j : Fin 4096) (k : Fin 1024) :
    val_main_v15 (F := Ideal) x1 (ix2 j k) = unitRow (fun k' => x1 (ix2 j k')) k := by
  rw [val_main_v15_apply, val_main_v14_apply, i14, val_main_v13_apply, val_main_v11_apply, val_main_v10_apply, i10,
    val_main_v9_apply, val_main_v12_apply, val_main_cst_2_apply, val_main_cst_1_apply]
  simp only [i9, val_main_v8_apply, Ideal.hostDivf_def, Ideal.hostUnary_sqrt_def, Ideal.maximumf_def, Ideal.mulf_def,
    Ideal.ofBits_def, Ideal.ofBits_zero_f32, zero_add]
  rfl

/-- The unit bank's rows, as a family of rows. -/
abbrev bankRows : Fin 4096 → Fin 1024 → EReal := fun j k => unitRow (fun k' => x1 (ix2 j k')) k

/-- The scaled inner products. -/
theorem scores_apply (b : Fin 16384) (j : Fin 4096) :
    val_main_v18 (F := Ideal) x0 x1 (ix2 b j) = scoreLate (fun k => x0 (ix2 b k)) (bankRows x1) j := by
  rw [val_main_v18_apply, val_main_v16_apply, val_main_v17_apply, val_main_cst_3_apply]
  simp only [l16, r16, unitQuery_apply, unitBank_apply]
  rfl

/-- The largest score of row \`b\`. -/
theorem rowMax_apply (b : Fin 16384) :
    val_main_v21 (F := Ideal) x0 x1 (ix1 b) = rowMax (scoreLate (fun k => x0 (ix2 b k)) (bankRows x1)) := by
  rw [val_main_v21_apply, val_main_v20_apply, val_main_cst_5_apply]
  unfold val_main_v19
  rw [HostLaneMax.hostLaneMax_apply _ _ reducesTo_S16384x4096_S16384_d1 (by decide) h_S_ b, val_main_cst_4_apply]
  simp only [scores_apply]
  show max negInf (rowMax _) = _
  exact max_eq_right (by rw [negInf_eq]; exact bot_le)

/-- The exponentials of the scores below their row's maximum. -/
theorem wexp_apply (b : Fin 16384) (j : Fin 4096) :
    val_main_v25 (F := Ideal) x0 x1 (ix2 b j) = wexp (scoreLate (fun k => x0 (ix2 b k)) (bankRows x1)) j := by
  rw [val_main_v25_apply, val_main_v24_apply, val_main_v23_apply, i23, val_main_v22_apply, i22, rowMax_apply, scores_apply]
  rfl

/-- The bank mixed with the softmax weights, plus the query. -/
theorem mix_apply (b : Fin 16384) (d : Fin 1024) :
    val_main_v31 (F := Ideal) x0 x1 (ix2 b d) = mixEarly (fun k => x0 (ix2 b k)) (bankRows x1) d := by
  rw [val_main_v31_apply, val_main_v30_apply]
  simp only [l30, r30, val_main_v29_apply, val_main_v28_apply, i28, val_main_v27_apply, i27, val_main_v26_apply, i26,
    val_main_cst_6_apply, wexp_apply, unitBank_apply, Ideal.hostDivf_def, Ideal.addf_def, Ideal.ofBits_def,
    Ideal.ofBits_zero_f32, zero_add]
  rfl

/-- The result: each mixed row normalised, scaled and shifted. -/
theorem result_apply (x2 x3 : (⟨S1024, .f32⟩ : BufTy).Contents (Elt Ideal)) (b : Fin 16384) (d : Fin 1024) :
    val_main_v55 (F := Ideal) x0 x1 x2 x3 (ix2 b d)
      = layerNorm (mixEarly (fun k => x0 (ix2 b k)) (bankRows x1)) (fun k => x2 (ix1 k)) (fun k => x3 (ix1 k)) d := by
  rw [val_main_v55_apply, val_main_v54_apply, i54, val_main_v53_apply, i53, val_main_v52_apply, val_main_v51_apply, i51,
    val_main_v50_apply, i50, val_main_v49_apply, val_main_v48_apply, i48, val_main_v47_apply, val_main_v46_apply,
    val_main_v45_apply, val_main_cst_11_apply, val_main_v44_apply, val_main_v43_apply, i43, val_main_v42_apply,
    val_main_v41_apply, val_main_cst_10_apply, val_main_v40_apply, i40, val_main_v39_apply, val_main_cst_9_apply,
    val_main_v35_apply, val_main_v34_apply, val_main_cst_8_apply, val_main_v33_apply, i33, val_main_v32_apply,
    val_main_cst_7_apply]
  simp only [i39, i32, val_main_v38_apply, val_main_v37_apply, val_main_v36_apply, i36, val_main_v35_apply,
    val_main_v34_apply, val_main_cst_8_apply, val_main_v33_apply, i33, val_main_v32_apply, val_main_cst_7_apply, mix_apply,
    Ideal.hostDivf_def, Ideal.hostUnary_rsqrt_def, Ideal.addf_def, Ideal.subf_def, Ideal.mulf_def, Ideal.ofBits_def,
    Ideal.ofBits_zero_f32, zero_add]
  rfl

end Cert.ReferenceIdeal.Rows

end
-- ==== Proof.Bridge.lean ====
/-
  The kernel's result array and the reference's result are one function of the arguments, when the queries and
  the memory bank hold real numbers.

  At row \`b\`, lane \`d\`, both are \`layerNorm\` of a mix of the unit bank's rows at query row \`b\`: the kernel's with the
  scale applied before the inner products and the division by the sum of exponentials after mixing (\`mixLate\`), the
  reference's with the scale after and the division before (\`mixEarly\`). The two mixes agree on real data
  (\`Retrieval.mix_eq\`); the parameter rows are the parameter vectors read through a reshape.
-/
import proofs.«124981_j28509992911130_2_alg».proof.Proof.Arrays
import proofs.«124981_j28509992911130_2_alg».proof.Proof.RefRows
import Idealize.ShloMosaic.Lib.ValueLayout

noncomputable section

namespace Cert.Bridge

open Cert.Retrieval Cert.KernelIdeal.Arrays Idealize.ShloMosaic Idealize.ShloMosaic.ValueIdx

/-- The kernel's whole-array function of the arguments is the reference's last stage. -/
theorem outRows_eq_reference (X : (⟨2, ![16384, 1024]⟩ : Shape).Idx → EReal) (Mem : (⟨2, ![4096, 1024]⟩ : Shape).Idx → EReal)
    (γ β : (⟨1, ![1024]⟩ : Shape).Idx → EReal) (hC : (⟨1, ![1024]⟩ : Shape).ShapeCasts ⟨2, ![1, 1024]⟩)
    (hX : ∀ i, IsReal (X i)) (hM : ∀ i, IsReal (Mem i)) :
    outRows X (unitBank Mem) (shapeCast ⟨2, ![1, 1024]⟩ γ hC) (shapeCast ⟨2, ![1, 1024]⟩ β hC)
      = Cert.ReferenceIdeal.Read.val_main_v55 (F := Ideal) X Mem γ β := by
  funext i
  obtain ⟨b, d, rfl⟩ : ∃ (b : Fin 16384) (d : Fin 1024), i = ix2 b d := ⟨i 0, i 1, eq_ix2 i⟩
  rw [Cert.ReferenceIdeal.Rows.result_apply]
  have hN : ∀ (j : Fin 4096) (k : Fin 1024), IsReal (unitBank Mem (ix2 j k)) :=
    fun j k => unitRow_real (v := fun k' => Mem (ix2 j k')) (fun k' => hM _) k
  have hmix := mix_eq (n := 1024) (m := 4096) (by norm_num) (x := fun k => X (ix2 b k))
    (N := fun j k => unitBank Mem (ix2 j k)) (fun k => hX _) hN
  have hg : (fun k => shapeCast ⟨2, ![1, 1024]⟩ γ hC (ix2 (0 : Fin 1) k)) = fun k => γ (ix1 k) :=
    funext fun k => shapeCast_a_1a_apply γ hC 0 k
  have hb : (fun k => shapeCast ⟨2, ![1, 1024]⟩ β hC (ix2 (0 : Fin 1) k)) = fun k => β (ix1 k) :=
    funext fun k => shapeCast_a_1a_apply β hC 0 k
  show layerNorm (mixLate (fun k => X (ix2 b k)) (fun j k => unitBank Mem (ix2 j k)))
    (fun k => shapeCast ⟨2, ![1, 1024]⟩ γ hC (ix2 (0 : Fin 1) k)) (fun k => shapeCast ⟨2, ![1, 1024]⟩ β hC (ix2 (0 : Fin 1) k)) d = _
  rw [hmix, hg, hb]
  rfl

end Cert.Bridge

end
-- ==== Proof.lean ====
/-
  A retrieval layer: each of 16384 query rows is scored against a bank of 4096 memory rows (both divided by their
  floored norms, the scores scaled by 0.3125), the bank is mixed with the softmax of the scores, the query is added,
  and the row is normalised to mean zero and unit variance and sent through an affine map.

  The kernel does this in two grid regions: the first normalises the bank 512 rows at a time; the second takes 256
  query rows at a time against the whole normalised bank, applies the scale BEFORE the inner products and divides by
  the sum of exponentials AFTER mixing. The reference applies the scale to the inner products and divides every
  exponential by the sum before mixing. On the extended reals both arrangements give the same array when the
  queries and the bank hold real numbers, which the precondition says:  Σ (a·c)·b = (Σ a·b)·c  and
  (Σ e·n)·(1/S) = Σ (e/S)·n  for real terms and a positive real S.

  The modules: \`Rows\` (the row functions, finiteness, the two laws), \`RowStages\` / \`Products\` / \`Blocks\` (the kernel
  bodies entry by entry), \`Arrays\` (blocks to arrays), \`KernelRun\` / \`KernelValue\` (the kernel's run with its result
  named), \`RefRows\` (the reference row by row), \`Finite\` (what the precondition gives), \`Bridge\` (the two results are
  one function).
-/
import proofs.«124981_j28509992911130_2_alg».proof.Defs
import proofs.«124981_j28509992911130_2_alg».proof.Proof.Gen.Kernel
import proofs.«124981_j28509992911130_2_alg».proof.Proof.Gen.Kernel.Skeleton
import proofs.«124981_j28509992911130_2_alg».proof.Proof.Gen.Kernel.Launch
import proofs.«124981_j28509992911130_2_alg».proof.Proof.Gen.Kernel.Points
import proofs.«124981_j28509992911130_2_alg».proof.Proof.Gen.Kernel.Frame
import proofs.«124981_j28509992911130_2_alg».proof.Proof.Gen.KernelIdeal
import proofs.«124981_j28509992911130_2_alg».proof.Proof.Gen.KernelIdeal.Skeleton
import proofs.«124981_j28509992911130_2_alg».proof.Proof.Gen.KernelIdeal.Launch
import proofs.«124981_j28509992911130_2_alg».proof.Proof.Gen.KernelIdeal.Points
import proofs.«124981_j28509992911130_2_alg».proof.Proof.Gen.KernelIdeal.Frame
import proofs.«124981_j28509992911130_2_alg».proof.Proof.Gen.ReferenceIdeal
import proofs.«124981_j28509992911130_2_alg».proof.Proof.Gen.Pre_finite_inputs
import proofs.«124981_j28509992911130_2_alg».proof.Proof.Gen.ReferenceIdeal.Run
import proofs.«124981_j28509992911130_2_alg».proof.Proof.Gen.ReferenceIdeal.Read
import proofs.«124981_j28509992911130_2_alg».proof.Proof.KernelValue
import proofs.«124981_j28509992911130_2_alg».proof.Proof.Finite
import proofs.«124981_j28509992911130_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the kernel's result array ends at \`outRows\` of the arguments and the
    reference's at its last stage of them: one function, the queries and the bank being real under the precondition. -/
theorem algebraic : Cert.algebraic_KernelIdeal_ReferenceIdeal := by
  intro m ρ m' ρ' hpre hagree
  refine ⟨fun c => Cert.KernelIdeal.Out.result m c, Cert.KernelIdeal.Out.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2]
  obtain ⟨hX, hM⟩ := Cert.Pre_finite_inputs.Finite.real_of_pre _ _ _ _ (hpre c)
  exact (Cert.Bridge.outRows_eq_reference _ _ _ _ _ hX hM).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
